-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1024 : Shape := ⟨2, ![200000, 1024]⟩
abbrev S200000 : Shape := ⟨1, ![200000]⟩
abbrev S1x4 : Shape := ⟨2, ![1, 4]⟩
abbrev S1x1024 : Shape := ⟨2, ![1, 1024]⟩
abbrev S256x1024 : Shape := ⟨2, ![256, 1024]⟩
abbrev S256x256 : Shape := ⟨2, ![256, 256]⟩
abbrev S1x256 : Shape := ⟨2, ![1, 256]⟩
abbrev S_ : Shape := ⟨0, ![]⟩

class Facts : Prop where
  bcast_S_S200000x1024 : S_.BroadcastsInDim S200000x1024 (![] : Fin 0 → Fin S200000x1024.rank)
  reducesTo_S200000x1024_S_d0_1 : S200000x1024.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S1x1024 : S_.BroadcastsInDim S1x1024 (![] : Fin 0 → Fin S1x1024.rank)
  reducesTo_S1x1024_S_d0_1 : S1x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg6 : FVec F S256x256 .f32) (main_arg7 : FVec F S1x256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1x256 .f32 := Host.absf main_arg7
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  main_v28

def fn {F : FTy → Type} [FloatOps F] (main_arg0 : FVec F S200000x1024 .f32) (main_arg1 : IVec S200000 32) (main_arg2 : IVec S200000 32) (main_arg3 : FVec F S1x4 .f32) (main_arg4 : FVec F S1x1024 .f32) (main_arg5 : FVec F S256x1024 .f32) (main_arg6 : FVec F S256x256 .f32) (main_arg7 : FVec F S1x256 .f32) : IVec S_ 1 :=
  let main_v0 : FVec F S200000x1024 .f32 := Host.absf main_arg0
  let main_cst : FVec F S_ .f32 := constant S_ .f32 0x7F800000#32
  let main_v1 : FVec F S200000x1024 .f32 := broadcastInDim S200000x1024 ![] bcast_S_S200000x1024 main_cst
  let main_v2 : IVec S200000x1024 1 := cmpf .olt main_v0 main_v1
  let main_c : IVec S_ 1 := constantI S_ 1 1#1
  let main_v3 : IVec S_ 1 := (fun x v => Host.reduce IntOp.andi x v reducesTo_S200000x1024_S_d0_1 h_S_) main_v2 main_c
  let main_v4 : FVec F S1x4 .f32 := Host.absf main_arg3
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_v13 main_v16
-- ==== Kernel.lean ====
abbrev S200000x1024 : Shape := ⟨2, ![200000, 1024]⟩
abbrev S200000 : Shape := ⟨1, ![200000]⟩
abbrev S1x4 : Shape := ⟨2, ![1, 4]⟩
abbrev S1x1024 : Shape := ⟨2, ![1, 1024]⟩
abbrev S256x1024 : Shape := ⟨2, ![256, 1024]⟩
abbrev S256x256 : Shape := ⟨2, ![256, 256]⟩
abbrev S1x256 : Shape := ⟨2, ![1, 256]⟩
abbrev S200000x1 : Shape := ⟨2, ![200000, 1]⟩
abbrev S2000x1024 : Shape := ⟨2, ![2000, 1024]⟩
abbrev S2000x1 : Shape := ⟨2, ![2000, 1]⟩
abbrev S1024x1 : Shape := ⟨2, ![1024, 1]⟩
abbrev S1024x256 : Shape := ⟨2, ![1024, 256]⟩
abbrev S2000x256 : Shape := ⟨2, ![2000, 256]⟩
abbrev S256x1 : Shape := ⟨2, ![256, 1]⟩
abbrev S200000x4 : Shape := ⟨2, ![200000, 4]⟩
abbrev S_ : Shape := ⟨0, ![]⟩
abbrev S2000x4 : Shape := ⟨2, ![2000, 4]⟩
abbrev S4x1 : Shape := ⟨2, ![4, 1]⟩

abbrev nBuf : Space → Nat
  | .hbm => 29
  | .vmem => 8
  | .smem => 0
  | _ => 0

abbrev bufTy : (tb : Table) → Fin (tcTables nBuf tb) → BufTy
  | .hbm, ⟨0, _⟩ => ⟨S200000x1024, .f32⟩
  | .hbm, ⟨1, _⟩ => ⟨S200000, .i32⟩
  | .hbm, ⟨2, _⟩ => ⟨S200000, .i32⟩
  | .hbm, ⟨3, _⟩ => ⟨S1x4, .f32⟩
  | .hbm, ⟨4, _⟩ => ⟨S1x1024, .f32⟩
  | .hbm, ⟨5, _⟩ => ⟨S256x1024, .f32⟩
  | .hbm, ⟨6, _⟩ => ⟨S256x256, .f32⟩
  | .hbm, ⟨7, _⟩ => ⟨S1x256, .f32⟩
  | .hbm, ⟨8, _⟩ => ⟨S200000x1, .f32⟩
  | .hbm, ⟨9, _⟩ => ⟨S200000x1, .i32⟩
  | .hbm, ⟨10, _⟩ => ⟨S1x4, .i32⟩
  | .hbm, ⟨11, _⟩ => ⟨S200000x4, .i32⟩
  | .hbm, ⟨12, _⟩ => ⟨S200000x4, .i32⟩
  | .hbm, ⟨13, _⟩ => ⟨S200000x4, .i1⟩
  | .hbm, ⟨14, _⟩ => ⟨S200000x4, .f32⟩
  | .hbm, ⟨15, _⟩ => ⟨S_, .f32⟩
  | .hbm, ⟨16, _⟩ => ⟨S2000x4, .f32⟩
  | .hbm, ⟨17, _⟩ => ⟨S200000x1, .i32⟩
  | .hbm, ⟨18, _⟩ => ⟨S2000x4, .f32⟩
  | .hbm, ⟨19, _⟩ => ⟨S4x1, .f32⟩
  | .hbm, ⟨20, _⟩ => ⟨S2000x1, .f32⟩
  | .hbm, ⟨21, _⟩ => ⟨S_, .f32⟩
  | .hbm, ⟨22, _⟩ => ⟨S2000x1, .f32⟩
  | .hbm, ⟨23, _⟩ => ⟨S200000x1, .i32⟩
  | .hbm, ⟨24, _⟩ => ⟨S2000x1, .f32⟩
  | .hbm, ⟨25, _⟩ => ⟨S_, .f32⟩
  | .hbm, ⟨26, _⟩ => ⟨S2000x1, .f32⟩
  | .hbm, ⟨27, _⟩ => ⟨S2000x1, .f32⟩
  | .hbm, ⟨28, _⟩ => ⟨S2000x1, .f32⟩
  | .local _ .vmem, ⟨0, _⟩ => ⟨S2000x1024, .f32⟩
  | .local _ .vmem, ⟨1, _⟩ => ⟨S2000x1024, .f32⟩
  | .local _ .vmem, ⟨2, _⟩ => ⟨S1x1024, .f32⟩
  | .local _ .vmem, ⟨3, _⟩ => ⟨S256x1024, .f32⟩
  | .local _ .vmem, ⟨4, _⟩ => ⟨S256x256, .f32⟩
  | .local _ .vmem, ⟨5, _⟩ => ⟨S1x256, .f32⟩
  | .local _ .vmem, ⟨6, _⟩ => ⟨S2000x1, .f32⟩
  | .local _ .vmem, ⟨7, _⟩ => ⟨S2000x1, .f32⟩
  | _, _ => ⟨S200000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  transposes_S1x1024_p1_0_S1024x1 : S1x1024.Transposes [1, 0] S1024x1
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  transposes_S1x256_p1_0_S256x1 : S1x256.Transposes [1, 0] S256x1
  inb_S2000x1_S2000x1_0_0 : ∀ a, (![0, 0] : Fin 2 → Nat) a + S2000x1.size a ≤ S2000x1.size a
  h_S2000x1 : 0 < S2000x1.numel
  bcast_S200000_S200000x1_0 : S200000.BroadcastsInDim S200000x1 (![0] : Fin 1 → Fin S200000x1.rank)
  bcast_S200000x1_S200000x4_0_1 : S200000x1.BroadcastsInDim S200000x4 (![0, 1] : Fin 2 → Fin S200000x4.rank)
  bcast_S1x4_S200000x4_0_1 : S1x4.BroadcastsInDim S200000x4 (![0, 1] : Fin 2 → Fin S200000x4.rank)
  bcast_S_S2000x4 : S_.BroadcastsInDim S2000x4 (![] : Fin 0 → Fin S2000x4.rank)
  transposes_S1x4_S4x1_1_0 : S1x4.Transposes [1, 0] S4x1
  bcast_S_S2000x1 : S_.BroadcastsInDim S2000x1 (![] : Fin 0 → Fin S2000x1.rank)
  dot_S2000x1024_S1024x1_S2000x1_1_0_0_1_n_n_wf : DotDims.WF S2000x1024 S1024x1 S2000x1 [1] [0] [0] [1] [] []
  dot_S2000x1024_S1024x256_S2000x256_1_0_0_1_n_n_wf : DotDims.WF S2000x1024 S1024x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  scatter_S2000x4_S200000x1_S200000x4_1_0_0_1_wf : ScatterDims.WF S2000x4 S200000x1 S200000x4 [1] [0] [0] 1
  dot_S2000x4_S4x1_S2000x1_1_0_0_1_n_n_wf : DotDims.WF S2000x4 S4x1 S2000x1 [1] [0] [0] [1] [] []
  scatter_S2000x1_S200000x1_S200000x1_1_0_0_1_wf : ScatterDims.WF S2000x1 S200000x1 S200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S200000x1024.size a
  hwx0_0 : ∀ i : grid0.Coords, EltTy.bits .f32 = 32 ∨ (Rect.block (s := S200000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S200000x1.size a
  hwx0_5 : ∀ i : grid0.Coords, EltTy.bits .f32 = 32 ∨ (Rect.block (s := S200000x1) S2000x1.size (cc0_transform_5 i) (hinb0_5 i)).WholeWords (EltTy.packing .f32)

variable [Facts₀]

def dot_S2000x1024_S1024x1_S2000x1_1_0_0_1_n_n : DotDims S2000x1024 S1024x1 S2000x1 where
  lhsContracting := [1]
  rhsContracting := [0]
  lhsNonContracting := [0]
  rhsNonContracting := [1]
  lhsBatch := []
  rhsBatch := []
  wf := dot_S2000x1024_S1024x1_S2000x1_1_0_0_1_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def scatter_S2000x4_S200000x1_S200000x4_1_0_0_1 : ScatterDims S2000x4 S200000x1 S200000x4 where
  updateWindowDims := [1]
  insertedWindowDims := [0]
  scatterDimsToOperandDims := [0]
  indexVectorDim := 1
  wf := scatter_S2000x4_S200000x1_S200000x4_1_0_0_1_wf
def dot_S2000x4_S4x1_S2000x1_1_0_0_1_n_n : DotDims S2000x4 S4x1 S2000x1 where
  lhsContracting := [1]
  rhsContracting := [0]
  lhsNonContracting := [0]
  rhsNonContracting := [1]
  lhsBatch := []
  rhsBatch := []
  wf := dot_S2000x4_S4x1_S2000x1_1_0_0_1_n_n_wf
def scatter_S2000x1_S200000x1_S200000x1_1_0_0_1 : ScatterDims S2000x1 S200000x1 S200000x1 where
  updateWindowDims := [1]
  insertedWindowDims := [0]
  scatterDimsToOperandDims := [0]
  indexVectorDim := 1
  wf := scatter_S2000x1_S200000x1_S200000x1_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x1024 : Shape := ⟨2, ![200000, 1024]⟩
abbrev S200000 : Shape := ⟨1, ![200000]⟩
abbrev S1x4 : Shape := ⟨2, ![1, 4]⟩
abbrev S1x1024 : Shape := ⟨2, ![1, 1024]⟩
abbrev S256x1024 : Shape := ⟨2, ![256, 1024]⟩
abbrev S256x256 : Shape := ⟨2, ![256, 256]⟩
abbrev S1x256 : Shape := ⟨2, ![1, 256]⟩
abbrev S200000x1 : Shape := ⟨2, ![200000, 1]⟩
abbrev S200000x4 : Shape := ⟨2, ![200000, 4]⟩
abbrev S_ : Shape := ⟨0, ![]⟩
abbrev S2000x4 : Shape := ⟨2, ![2000, 4]⟩
abbrev S4x1 : Shape := ⟨2, ![4, 1]⟩
abbrev S2000x1 : Shape := ⟨2, ![2000, 1]⟩
abbrev S1024x1 : Shape := ⟨2, ![1024, 1]⟩
abbrev S1024x256 : Shape := ⟨2, ![1024, 256]⟩
abbrev S200000x256 : Shape := ⟨2, ![200000, 256]⟩
abbrev S256x1 : Shape := ⟨2, ![256, 1]⟩

abbrev nBuf : Space → Nat
  | .hbm => 59
  | .vmem => 0
  | .smem => 0
  | _ => 0

abbrev bufTy : (tb : Table) → Fin (tcTables nBuf tb) → BufTy
  | .hbm, ⟨0, _⟩ => ⟨S200000x1024, .f32⟩
  | .hbm, ⟨1, _⟩ => ⟨S200000, .i32⟩
  | .hbm, ⟨2, _⟩ => ⟨S200000, .i32⟩
  | .hbm, ⟨3, _⟩ => ⟨S1x4, .f32⟩
  | .hbm, ⟨4, _⟩ => ⟨S1x1024, .f32⟩
  | .hbm, ⟨5, _⟩ => ⟨S256x1024, .f32⟩
  | .hbm, ⟨6, _⟩ => ⟨S256x256, .f32⟩
  | .hbm, ⟨7, _⟩ => ⟨S1x256, .f32⟩
  | .hbm, ⟨8, _⟩ => ⟨S200000x1, .i32⟩
  | .hbm, ⟨9, _⟩ => ⟨S1x4, .i32⟩
  | .hbm, ⟨10, _⟩ => ⟨S200000x4, .i32⟩
  | .hbm, ⟨11, _⟩ => ⟨S200000x4, .i32⟩
  | .hbm, ⟨12, _⟩ => ⟨S200000x4, .i1⟩
  | .hbm, ⟨13, _⟩ => ⟨S200000x4, .f32⟩
  | .hbm, ⟨14, _⟩ => ⟨S_, .f32⟩
  | .hbm, ⟨15, _⟩ => ⟨S2000x4, .f32⟩
  | .hbm, ⟨16, _⟩ => ⟨S200000x1, .i32⟩
  | .hbm, ⟨17, _⟩ => ⟨S2000x4, .f32⟩
  | .hbm, ⟨18, _⟩ => ⟨S4x1, .f32⟩
  | .hbm, ⟨19, _⟩ => ⟨S2000x1, .f32⟩
  | .hbm, ⟨20, _⟩ => ⟨S1024x1, .f32⟩
  | .hbm, ⟨21, _⟩ => ⟨S200000x1, .f32⟩
  | .hbm, ⟨22, _⟩ => ⟨S_, .f32⟩
  | .hbm, ⟨23, _⟩ => ⟨S2000x1, .f32⟩
  | .hbm, ⟨24, _⟩ => ⟨S200000x1, .i32⟩
  | .hbm, ⟨25, _⟩ => ⟨S2000x1, .f32⟩
  | .hbm, ⟨26, _⟩ => ⟨S1024x256, .f32⟩
  | .hbm, ⟨27, _⟩ => ⟨S200000x256, .f32⟩
  | .hbm, ⟨28, _⟩ => ⟨S200000x256, .f32⟩
  | .hbm, ⟨29, _⟩ => ⟨S200000x256, .f32⟩
  | .hbm, ⟨30, _⟩ => ⟨S_, .f32⟩
  | .hbm, ⟨31, _⟩ => ⟨S200000x256, .f32⟩
  | .hbm, ⟨32, _⟩ => ⟨S200000x256, .f32⟩
  | .hbm, ⟨33, _⟩ => ⟨S_, .f32⟩
  | .hbm, ⟨34, _⟩ => ⟨S200000x256, .f32⟩
  | .hbm, ⟨35, _⟩ => ⟨S200000x256, .f32⟩
  | .hbm, ⟨36, _⟩ => ⟨S200000x256, .f32⟩
  | .hbm, ⟨37, _⟩ => ⟨S256x256, .f32⟩
  | .hbm, ⟨38, _⟩ => ⟨S200000x256, .f32⟩
  | .hbm, ⟨39, _⟩ => ⟨S200000x256, .f32⟩
  | .hbm, ⟨40, _⟩ => ⟨S200000x256, .f32⟩
  | .hbm, ⟨41, _⟩ => ⟨S_, .f32⟩
  | .hbm, ⟨42, _⟩ => ⟨S200000x256, .f32⟩
  | .hbm, ⟨43, _⟩ => ⟨S200000x256, .f32⟩
  | .hbm, ⟨44, _⟩ => ⟨S_, .f32⟩
  | .hbm, ⟨45, _⟩ => ⟨S200000x256, .f32⟩
  | .hbm, ⟨46, _⟩ => ⟨S200000x256, .f32⟩
  | .hbm, ⟨47, _⟩ => ⟨S200000x256, .f32⟩
  | .hbm, ⟨48, _⟩ => ⟨S256x1, .f32⟩
  | .hbm, ⟨49, _⟩ => ⟨S200000x1, .f32⟩
  | .hbm, ⟨50, _⟩ => ⟨S_, .f32⟩
  | .hbm, ⟨51, _⟩ => ⟨S2000x1, .f32⟩
  | .hbm, ⟨52, _⟩ => ⟨S200000x1, .i32⟩
  | .hbm, ⟨53, _⟩ => ⟨S2000x1, .f32⟩
  | .hbm, ⟨54, _⟩ => ⟨S2000x1, .f32⟩
  | .hbm, ⟨55, _⟩ => ⟨S_, .f32⟩
  | .hbm, ⟨56, _⟩ => ⟨S2000x1, .f32⟩
  | .hbm, ⟨57, _⟩ => ⟨S2000x1, .f32⟩
  | .hbm, ⟨58, _⟩ => ⟨S2000x1, .f32⟩
  | _, _ => ⟨S200000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_2 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]

class Facts₀ : Prop where
  bcast_S200000_S200000x1_0 : S200000.BroadcastsInDim S200000x1 (![0] : Fin 1 → Fin S200000x1.rank)
  bcast_S200000x1_S200000x4_0_1 : S200000x1.BroadcastsInDim S200000x4 (![0, 1] : Fin 2 → Fin S200000x4.rank)
  bcast_S1x4_S200000x4_0_1 : S1x4.BroadcastsInDim S200000x4 (![0, 1] : Fin 2 → Fin S200000x4.rank)
  bcast_S_S2000x4 : S_.BroadcastsInDim S2000x4 (![] : Fin 0 → Fin S2000x4.rank)
  transposes_S1x4_S4x1_1_0 : S1x4.Transposes [1, 0] S4x1
  transposes_S1x1024_S1024x1_1_0 : S1x1024.Transposes [1, 0] S1024x1
  bcast_S_S2000x1 : S_.BroadcastsInDim S2000x1 (![] : Fin 0 → Fin S2000x1.rank)
  transposes_S256x1024_S1024x256_1_0 : S256x1024.Transposes [1, 0] S1024x256
  bcast_S_S200000x256 : S_.BroadcastsInDim S200000x256 (![] : Fin 0 → Fin S200000x256.rank)
  transposes_S256x256_S256x256_1_0 : S256x256.Transposes [1, 0] S256x256
  transposes_S1x256_S256x1_1_0 : S1x256.Transposes [1, 0] S256x1
  scatter_S2000x4_S200000x1_S200000x4_1_0_0_1_wf : ScatterDims.WF S2000x4 S200000x1 S200000x4 [1] [0] [0] 1
  dot_S2000x4_S4x1_S2000x1_1_0_0_1_n_n_wf : DotDims.WF S2000x4 S4x1 S2000x1 [1] [0] [0] [1] [] []
  dot_S200000x1024_S1024x1_S200000x1_1_0_0_1_n_n_wf : DotDims.WF S200000x1024 S1024x1 S200000x1 [1] [0] [0] [1] [] []
  scatter_S2000x1_S200000x1_S200000x1_1_0_0_1_wf : ScatterDims.WF S2000x1 S200000x1 S200000x1 [1] [0] [0] 1
  dot_S200000x1024_S1024x256_S200000x256_1_0_0_1_n_n_wf : DotDims.WF S200000x1024 S1024x256 S200000x256 [1] [0] [0] [1] [] []
  dot_S200000x256_S256x256_S200000x256_1_0_0_1_n_n_wf : DotDims.WF S200000x256 S256x256 S200000x256 [1] [0] [0] [1] [] []
  dot_S200000x256_S256x1_S200000x1_1_0_0_1_n_n_wf : DotDims.WF S200000x256 S256x1 S200000x1 [1] [0] [0] [1] [] []

variable [Facts₀]

def scatter_S2000x4_S200000x1_S200000x4_1_0_0_1 : ScatterDims S2000x4 S200000x1 S200000x4 where
  updateWindowDims := [1]
  insertedWindowDims := [0]
  scatterDimsToOperandDims := [0]
  indexVectorDim := 1
  wf := scatter_S2000x4_S200000x1_S200000x4_1_0_0_1_wf
def dot_S2000x4_S4x1_S2000x1_1_0_0_1_n_n : DotDims S2000x4 S4x1 S2000x1 where
  lhsContracting := [1]
  rhsContracting := [0]
  lhsNonContracting := [0]
  rhsNonContracting := [1]
  lhsBatch := []
  rhsBatch := []
  wf := dot_S2000x4_S4x1_S2000x1_1_0_0_1_n_n_wf
def dot_S200000x1024_S1024x1_S200000x1_1_0_0_1_n_n : DotDims S200000x1024 S1024x1 S200000x1 where
  lhsContracting := [1]
  rhsContracting := [0]
  lhsNonContracting := [0]
  rhsNonContracting := [1]
  lhsBatch := []
  rhsBatch := []
  wf := dot_S200000x1024_S1024x1_S200000x1_1_0_0_1_n_n_wf
def scatter_S2000x1_S200000x1_S200000x1_1_0_0_1 : ScatterDims S2000x1 S200000x1 S200000x1 where
  updateWindowDims := [1]
  insertedWindowDims := [0]
  scatterDimsToOperandDims := [0]
  indexVectorDim := 1
  wf := scatter_S2000x1_S200000x1_S200000x1_1_0_0_1_wf
def dot_S200000x1024_S1024x256_S200000x256_1_0_0_1_n_n : DotDims S200000x1024 S1024x256 S200000x256 where
  lhsContracting := [1]
  rhsContracting := [0]
  lhsNonContracting := [0]
  rhsNonContracting := [1]
  lhsBatch := []
  rhsBatch := []
  wf := dot_S200000x1024_S1024x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.AtomEnergy.lean ====
/-
  The per-atom energy of the power-spectrum model, as one function of the argument arrays on the extended reals.

  For one atom with feature row `x` (1024 numbers):
    linear x      = Σ_k x_k · wl_k                                   (the linear branch)
    hidden1 x j   = silu (Σ_k x_k · W1_{j,k})                         (first layer, 256 units)
    hidden2 x j   = silu (Σ_i hidden1 x i · W2_{j,i})                 (second layer, 256 units)
    network x     = Σ_j hidden2 x j · wo_j                            (the read-out)
  with silu y = y · 1/(1 + e^(-y)).  `perAtom` is linear + network of row `n` of the feature matrix, for every atom `n`.

  The energies of the structures are segment sums of per-atom numbers, and a segment sum with an all-zero start
  is additive in what it sums: Σ_{j ↦ i} (a_j + b_j) = Σ_{j ↦ i} a_j + Σ_{j ↦ i} b_j. That needs only that addition of
  extended reals is commutative and associative, so it holds at the infinities too (`scatterAdd_add`).
-/
import Idealize.ShloMosaic.PureOps.Ideal
import Idealize.ShloMosaic.PureOps.Ideal.Laws
import Idealize.ShloMosaic.Lib.ValueIdx

noncomputable section

open scoped BigOperators

namespace Cert.AtomEnergy

open Idealize.ShloMosaic Idealize.ShloMosaic.ValueIdx

/-- A matrix of extended reals with `r` rows and `c` columns, indexed as the programs index their arrays. -/
abbrev Mat (r c : Nat) : Type := (⟨2, ![r, c]⟩ : Shape).Idx → EReal

/-- `silu y = y · logistic y`, with `logistic y = 1 / (1 + e^(-y))`. -/
def silu (y : EReal) : EReal := y * Ideal.logistic y

/-- The linear branch of one atom: its feature row against the one row of `wl`. -/
def linear (x : Fin 1024 → EReal) (wl : Mat 1 1024) : EReal := ∑ k : Fin 1024, x k * wl (ix2 0 k)

/-- Unit `j` of the first hidden layer. -/
def hidden1 (x : Fin 1024 → EReal) (W1 : Mat 256 1024) (j : Fin 256) : EReal :=
  silu (∑ k : Fin 1024, x k * W1 (ix2 j k))

/-- Unit `j` of the second hidden layer. -/
def hidden2 (x : Fin 1024 → EReal) (W1 : Mat 256 1024) (W2 : Mat 256 256) (j : Fin 256) : EReal :=
  silu (∑ i : Fin 256, hidden1 x W1 i * W2 (ix2 j i))

/-- The network branch of one atom: the second layer against the one row of `wo`. -/
def network (x : Fin 1024 → EReal) (W1 : Mat 256 1024) (W2 : Mat 256 256) (wo : Mat 1 256) : EReal :=
  ∑ j : Fin 256, hidden2 x W1 W2 j * wo (ix2 0 j)

/-- Row `n` of the feature matrix. -/
def row (ps : Mat 200000 1024) (n : Fin 200000) : Fin 1024 → EReal := fun k => ps (ix2 n k)

/-- The linear branch of every atom, as a column. -/
def linearCol (ps : Mat 200000 1024) (wl : Mat 1 1024) : Mat 200000 1 := fun i => linear (row ps (i 0)) wl

/-- The network branch of every atom, as a column. -/
def networkCol (ps : Mat 200000 1024) (W1 : Mat 256 1024) (W2 : Mat 256 256) (wo : Mat 1 256) : Mat 200000 1 :=
  fun i => network (row ps (i 0)) W1 W2 wo

/-- The per-atom energy: linear branch plus network branch, as a column. -/
def perAtom (ps : Mat 200000 1024) (wl : Mat 1 1024) (W1 : Mat 256 1024) (W2 : Mat 256 256) (wo : Mat 1 256) : Mat 200000 1 :=
  fun i => linear (row ps (i 0)) wl + network (row ps (i 0)) W1 W2 wo

theorem perAtom_eq_add (ps : Mat 200000 1024) (wl : Mat 1 1024) (W1 : Mat 256 1024) (W2 : Mat 256 256) (wo : Mat 1 256) :
    perAtom ps wl W1 W2 wo = addf (F := Ideal) (φ := .f32) (linearCol ps wl) (networkCol ps W1 W2 wo) := rfl

/-- A segment sum (an accumulating scatter) that starts from zeros is additive in the summed array: each result
    element is the sum of the updates landing on it, and a finite sum of sums is the sum of the two sums. -/
theorem scatterAdd_add {s si su : Shape} (d : ScatterDims s si su) {w : Nat} (z : FVec Ideal s .f32) (hz : ∀ i, z i = 0)
    (idx : IVec si w) (a b : FVec Ideal su .f32) :
    Host.scatterAdd d z idx (addf a b) = addf (Host.scatterAdd d z idx a) (Host.scatterAdd d z idx b) := by
  funext i
  show Ideal.hostScatterAdd d z idx (addf a b) i = Ideal.hostScatterAdd d z idx a i + Ideal.hostScatterAdd d z idx b i
  unfold Ideal.hostScatterAdd
  rw [hz i, zero_add, zero_add, zero_add, ← Finset.sum_add_distrib]
  rfl

end Cert.AtomEnergy

end
-- ==== Proof.Reference.lean ====
/-
  The reference program's value, stage by stage, is the per-atom energy model of `AtomEnergy`.

  Each matrix product of the reference is, at the extended reals, the sum over the contracted axis of the products of
  the operands' elements; the second operand is always a transposed weight matrix, so its element at (k, j) is the
  weight at (j, k). Reading every stage at an index gives, for atom `n`:
    the linear branch        Σ_k x_{n,k} · wl_{0,k}                          (`linear_eq`)
    the first hidden layer   silu (Σ_k x_{n,k} · W1_{j,k})                   (`hidden1_eq`)
    the second hidden layer  silu (Σ_i hidden1_{n,i} · W2_{j,i})             (`hidden2_eq`)
    the network branch       Σ_j hidden2_{n,j} · wo_{0,j}                    (`network_eq`)
  where the reference spells silu y as y · (1 / (1 + e^(-y))) with the constant one given by its bit pattern.

  The reference sums each branch over the atoms of a structure separately (two segment sums from zeros) and adds the
  two sums. A segment sum from zeros is additive, so this is the one segment sum of linear + network, the per-atom
  energy; the result is the composition term plus that sum times the all-ones column (`result_eq`).
-/
import proofs.«114554_j34333968564629_1_alg».proof.Proof.Gen.ReferenceIdeal.Read
import proofs.«114554_j34333968564629_1_alg».proof.Proof.AtomEnergy

noncomputable section
open scoped BigOperators
namespace Cert.ReferenceIdeal.RefValue
open Idealize.ShloMosaic Idealize.ShloMosaic.ValueIdx Cert.ReferenceIdeal Cert.ReferenceIdeal.Read Cert.AtomEnergy

/-- The single-precision bit pattern `0x3F800000` is the number one. -/
theorem ofBits_one_f32 : Ideal.ofBits .f32 0x3F800000#32 = 1 := by
  simp [Ideal.ofBits, Ideal.ieee, -EReal.coe_mul]; norm_num

/-- `y · (1 / (1 + e^(-y)))`, as the reference spells it, is `silu y`. -/
theorem silu_eq (y : EReal) :
    FloatOps.mulf (F := Ideal) (φ := .f32) y (FloatOps.hostDivf (Ideal.ofBits .f32 0x3F800000#32)
      (FloatOps.addf (Ideal.ofBits .f32 0x3F800000#32) (FloatOps.hostUnary .exp (FloatOps.hostNegf y)))) = silu y := by
  rw [ofBits_one_f32]; rfl

/-- A coordinate of an axis of extent one is zero. -/
theorem fin1_val (a : Fin 1) : a.val = 0 := by omega

theorem linear_eq (x0 : (⟨S200000x1024, .f32⟩ : BufTy).Contents (Elt Ideal)) (x4 : (⟨S1x1024, .f32⟩ : BufTy).Contents (Elt Ideal)) :
    val_main_v7 (F := Ideal) x0 x4 = linearCol x0 x4 := by
  funext i
  rw [val_main_v7_apply]
  unfold linearCol linear row
  refine Finset.sum_congr rfl fun k _ => ?_
  rw [val_main_v6_apply]
  have e1 : lidx_main_v7 i k = ix2 (i 0) k := funext fun a => Fin.ext (by
    match a with
    | ⟨0, _⟩ => rfl
    | ⟨1, _⟩ => rfl)
  have e2 : idx_main_v6 (ridx_main_v7 i k) = ix2 (0 : Fin 1) k := funext fun a => Fin.ext (by
    match a with
    | ⟨0, _⟩ => exact fin1_val _
    | ⟨1, _⟩ => rfl)
  rw [e1, e2]
  rfl

/-- The first activation, read at an index: `silu` of the first layer's pre-activation there. -/
theorem act1_eq (x0 : (⟨S200000x1024, .f32⟩ : BufTy).Contents (Elt Ideal)) (x5 : (⟨S256x1024, .f32⟩ : BufTy).Contents (Elt Ideal))
    (i : S200000x256.Idx) :
    val_main_v13 (F := Ideal) x0 x5 i = silu (val_main_v12 (F := Ideal) x0 x5 i) := by
  rw [val_main_v13_apply, val_main_call1_v5_apply, val_main_call1_v4_apply, val_main_call1_cst_0_apply,
    val_main_call1_v3_apply, val_main_call1_v2_apply, val_main_call1_cst_apply, val_main_call1_v1_apply,
    val_main_call1_v0_apply]
  exact silu_eq _

/-- The second activation, read at an index: `silu` of the second layer's pre-activation there. -/
theorem act2_eq (x0 : (⟨S200000x1024, .f32⟩ : BufTy).Contents (Elt Ideal)) (x5 : (⟨S256x1024, .f32⟩ : BufTy).Contents (Elt Ideal))
    (x6 : (⟨S256x256, .f32⟩ : BufTy).Contents (Elt Ideal)) (i : S200000x256.Idx) :
    val_main_v16 (F := Ideal) x0 x5 x6 i = silu (val_main_v15 (F := Ideal) x0 x5 x6 i) := by
  rw [val_main_v16_apply, val_main_call2_v5_apply, val_main_call2_v4_apply, val_main_call2_cst_0_apply,
    val_main_call2_v3_apply, val_main_call2_v2_apply, val_main_call2_cst_apply, val_main_call2_v1_apply,
    val_main_call2_v0_apply]
  exact silu_eq _

/-- The first hidden layer at atom `n`, unit `j`: `silu (Σ_k x_{n,k} · W1_{j,k})`. -/
theorem hidden1_eq (x0 : (⟨S200000x1024, .f32⟩ : BufTy).Contents (Elt Ideal)) (x5 : (⟨S256x1024, .f32⟩ : BufTy).Contents (Elt Ideal))
    (n : Fin 200000) (j : Fin 256) :
    val_main_v13 (F := Ideal) x0 x5 (ix2 n j) = hidden1 (row x0 n) x5 j := by
  rw [act1_eq, val_main_v12_apply]
  unfold hidden1 row
  refine congrArg silu (Finset.sum_congr rfl fun k _ => ?_)
  rw [val_main_v11_apply]
  have e1 : lidx_main_v12 (ix2 n j) k = ix2 n k := funext fun a => Fin.ext (by
    match a with
    | ⟨0, _⟩ => rfl
    | ⟨1, _⟩ => rfl)
  have e2 : idx_main_v11 (ridx_main_v12 (ix2 n j) k) = ix2 j k := funext fun a => Fin.ext (by
    match a with
    | ⟨0, _⟩ => rfl
    | ⟨1, _⟩ => rfl)
  rw [e1, e2]

/-- The second hidden layer at atom `n`, unit `j`: `silu (Σ_i hidden1_{n,i} · W2_{j,i})`. -/
theorem hidden2_eq (x0 : (⟨S200000x1024, .f32⟩ : BufTy).Contents (Elt Ideal)) (x5 : (⟨S256x1024, .f32⟩ : BufTy).Contents (Elt Ideal))
    (x6 : (⟨S256x256, .f32⟩ : BufTy).Contents (Elt Ideal)) (n : Fin 200000) (j : Fin 256) :
    val_main_v16 (F := Ideal) x0 x5 x6 (ix2 n j) = hidden2 (row x0 n) x5 x6 j := by
  rw [act2_eq, val_main_v15_apply]
  unfold hidden2
  refine congrArg silu (Finset.sum_congr rfl fun k _ => ?_)
  rw [val_main_v14_apply]
  have e1 : lidx_main_v15 (ix2 n j) k = ix2 n k := funext fun a => Fin.ext (by
    match a with
    | ⟨0, _⟩ => rfl
    | ⟨1, _⟩ => rfl)
  have e2 : idx_main_v14 (ridx_main_v15 (ix2 n j) k) = ix2 j k := funext fun a => Fin.ext (by
    match a with
    | ⟨0, _⟩ => rfl
    | ⟨1, _⟩ => rfl)
  rw [e1, e2, hidden1_eq]

theorem network_eq (x0 : (⟨S200000x1024, .f32⟩ : BufTy).Contents (Elt Ideal)) (x5 : (⟨S256x1024, .f32⟩ : BufTy).Contents (Elt Ideal))
    (x6 : (⟨S256x256, .f32⟩ : BufTy).Contents (Elt Ideal)) (x7 : (⟨S1x256, .f32⟩ : BufTy).Contents (Elt Ideal)) :
    val_main_v18 (F := Ideal) x0 x5 x6 x7 = networkCol x0 x5 x6 x7 := by
  funext i
  obtain ⟨n, c, rfl⟩ : ∃ (n : Fin 200000) (c : Fin 1), i = ix2 n c := ⟨i 0, i 1, eq_ix2 i⟩
  rw [val_main_v18_apply]
  unfold networkCol network
  refine Finset.sum_congr rfl fun k _ => ?_
  rw [val_main_v17_apply]
  have e1 : lidx_main_v18 (ix2 n c) k = ix2 n k := funext fun a => Fin.ext (by
    match a with
    | ⟨0, _⟩ => rfl
    | ⟨1, _⟩ => rfl)
  have e2 : idx_main_v17 (ridx_main_v18 (ix2 n c) k) = ix2 (0 : Fin 1) k := funext fun a => Fin.ext (by
    match a with
    | ⟨0, _⟩ => exact fin1_val _
    | ⟨1, _⟩ => rfl)
  rw [e1, e2, hidden2_eq]

/-- The reference's result: the composition term plus the segment sum, from zeros, of the per-atom energies, times the
    all-ones column. The reference sums the two branches per structure separately and adds the sums; a segment sum from
    zeros is additive, so that is the segment sum of the per-atom totals. -/
theorem result_eq (x0 : (⟨S200000x1024, .f32⟩ : BufTy).Contents (Elt Ideal)) (x1 x2 : (⟨S200000, .i32⟩ : BufTy).Contents (Elt Ideal))
    (x3 : (⟨S1x4, .f32⟩ : BufTy).Contents (Elt Ideal)) (x4 : (⟨S1x1024, .f32⟩ : BufTy).Contents (Elt Ideal))
    (x5 : (⟨S256x1024, .f32⟩ : BufTy).Contents (Elt Ideal)) (x6 : (⟨S256x256, .f32⟩ : BufTy).Contents (Elt Ideal))
    (x7 : (⟨S1x256, .f32⟩ : BufTy).Contents (Elt Ideal)) :
    val_main_v25 (F := Ideal) x0 x1 x2 x3 x4 x5 x6 x7
      = addf (F := Ideal) (φ := .f32) (val_main_v5 (F := Ideal) x1 x2 x3)
          (mulf (F := Ideal) (φ := .f32) (Host.scatterAdd scatter_S2000x1_S200000x1_S200000x1_1_0_0_1 (val_main_v8 (F := Ideal))
            (val_main_v9 (F := Ideal) x2) (perAtom x0 x4 x5 x6 x7)) (val_main_v23 (F := Ideal))) := by
  have hz : ∀ i, val_main_v8 (F := Ideal) i = 0 := fun i => by
    rw [val_main_v8_apply, val_main_cst_0_apply]
    exact Ideal.ofBits_zero_f32
  have h19 : val_main_v19 (F := Ideal) = val_main_v8 (F := Ideal) := rfl
  have h20 : val_main_v20 (F := Ideal) x2 = val_main_v9 (F := Ideal) x2 := rfl
  unfold val_main_v25 val_main_v24 val_main_v22 val_main_v10 val_main_v21
  rw [linear_eq, network_eq, h19, h20, perAtom_eq_add, scatterAdd_add _ _ hz]

end Cert.ReferenceIdeal.RefValue
end
-- ==== Proof.Payload.lean ====
/-
  The kernel body's arithmetic, read at one index of its result block.

  The body computes, from its five loaded blocks (2000 feature rows x, the row wl, the matrices W1 and W2, the row wo),
  four matrix products into an all-zero accumulator, each against a transposed right operand, so each is, at (p, q),
      Σ_c a_{p,c} · w_{q,c};
  the change of format before each product is the identity on the extended reals; and a logistic followed by a product
  with its own argument is silu. So the block at (p, 0) is
      Σ_k x_{p,k} · wl_k  +  Σ_j silu (Σ_i silu (Σ_k x_{p,k} · W1_{i,k}) · W2_{j,i}) · wo_j,
  the linear branch plus the network branch of feature row p.

  One lemma per matrix product, over variables and explicit coordinates: the sum over the one-axis contraction index is
  re-indexed by that axis's coordinate, the left operand is read at (p, c), the right at (c, q), and the transposed
  right operand at (c, q) is the untransposed one at (q, c).
-/
import proofs.«114554_j34333968564629_1_alg».proof.Proof.Gen.KernelIdeal.Skeleton
import proofs.«114554_j34333968564629_1_alg».proof.Proof.AtomEnergy
import Idealize.ShloMosaic.Lib.ValueIdx
import Idealize.ShloMosaic.Lib.Pipeline.Value
import Idealize.ShloMosaic.PureOps.Ideal.Laws

noncomputable section
open scoped BigOperators
namespace Cert.KernelIdeal.Payload
open Idealize.ShloMosaic Idealize.ShloMosaic.ValueIdx Cert.KernelIdeal Cert.KernelIdeal.Gen Cert.AtomEnergy

theorem mm_lin_lhs0 (i : S2000x1.Idx) (k : dot_S2000x1024_S1024x1_S2000x1_1_0_0_1_n_n.contr.Idx) : (dot_S2000x1024_S1024x1_S2000x1_1_0_0_1_n_n.lhsIdx i k 0).val = (i 0).val := by
  unfold DotDims.lhsIdx
  rw [dif_neg (show ¬(0 : Fin S2000x1024.rank) ∈ dot_S2000x1024_S1024x1_S2000x1_1_0_0_1_n_n.lhsBatch by decide), dif_pos (show (0 : Fin S2000x1024.rank) ∈ dot_S2000x1024_S1024x1_S2000x1_1_0_0_1_n_n.lhsNonContracting by decide)]
  rfl
theorem mm_lin_lhs1 (i : S2000x1.Idx) (k : dot_S2000x1024_S1024x1_S2000x1_1_0_0_1_n_n.contr.Idx) : (dot_S2000x1024_S1024x1_S2000x1_1_0_0_1_n_n.lhsIdx i k 1).val = (k ⟨0, by decide⟩).val :=
  dot_S2000x1024_S1024x1_S2000x1_1_0_0_1_n_n.lhsIdx_val_of_single rfl i k
theorem mm_lin_rhs0 (i : S2000x1.Idx) (k : dot_S2000x1024_S1024x1_S2000x1_1_0_0_1_n_n.contr.Idx) : (dot_S2000x1024_S1024x1_S2000x1_1_0_0_1_n_n.rhsIdx i k 0).val = (k ⟨0, by decide⟩).val :=
  dot_S2000x1024_S1024x1_S2000x1_1_0_0_1_n_n.rhsIdx_val_of_single rfl i k
theorem mm_lin_rhs1 (i : S2000x1.Idx) (k : dot_S2000x1024_S1024x1_S2000x1_1_0_0_1_n_n.contr.Idx) : (dot_S2000x1024_S1024x1_S2000x1_1_0_0_1_n_n.rhsIdx i k 1).val = (i 1).val := by
  unfold DotDims.rhsIdx
  rw [dif_neg (show ¬(1 : Fin S1024x1.rank) ∈ dot_S2000x1024_S1024x1_S2000x1_1_0_0_1_n_n.rhsBatch by decide), dif_pos (show (1 : Fin S1024x1.rank) ∈ dot_S2000x1024_S1024x1_S2000x1_1_0_0_1_n_n.rhsNonContracting by decide)]
  rfl

theorem mm_lin (a : FVec Ideal S2000x1024 .bf16) (w : FVec Ideal S1x1024 .bf16) (p : Fin 2000) (q : Fin 1) :
    matmul dot_S2000x1024_S1024x1_S2000x1_1_0_0_1_n_n none a (transpose S1024x1 [1, 0] w transposes_S1x1024_p1_0_S1024x1) (constant S2000x1 .f32 0x00000000#32) (ix2 p q)
      = ∑ c : Fin 1024, a (ix2 p c) * w (ix2 q c) := by
  simp only [matmul]
  rw [Ideal.matmul_constant_zero_apply, ← Equiv.sum_comp (contrEquiv1 dot_S2000x1024_S1024x1_S2000x1_1_0_0_1_n_n 1024 rfl rfl).symm]
  refine Finset.sum_congr rfl fun c _ => ?_
  have hc := contrEquiv1_symm_val dot_S2000x1024_S1024x1_S2000x1_1_0_0_1_n_n 1024 rfl rfl c
  have el : dot_S2000x1024_S1024x1_S2000x1_1_0_0_1_n_n.lhsIdx (ix2 p q) ((contrEquiv1 dot_S2000x1024_S1024x1_S2000x1_1_0_0_1_n_n 1024 rfl rfl).symm c) = ix2 p c := funext fun b => Fin.ext (by
    match b with
    | ⟨0, _⟩ => exact mm_lin_lhs0 _ _
    | ⟨1, _⟩ => exact (mm_lin_lhs1 _ _).trans hc)
  have er : dot_S2000x1024_S1024x1_S2000x1_1_0_0_1_n_n.rhsIdx (ix2 p q) ((contrEquiv1 dot_S2000x1024_S1024x1_S2000x1_1_0_0_1_n_n 1024 rfl rfl).symm c) = ix2 c q := funext fun b => Fin.ext (by
    match b with
    | ⟨0, _⟩ => exact (mm_lin_rhs0 _ _).trans hc
    | ⟨1, _⟩ => exact mm_lin_rhs1 _ _)
  rw [el, er]
  exact congrArg (a (ix2 p c) * ·) (transpose_apply [1, 0] w transposes_S1x1024_p1_0_S1024x1 (ix2 c q) (ix2 q c) (fun b => match b with
    | ⟨0, _⟩ => rfl
    | ⟨1, _⟩ => rfl))

theorem mm_hid1_lhs0 (i : S2000x256.Idx) (k : dot_S2000x1024_S1024x256_S2000x256_1_0_0_1_n_n.contr.Idx) : (dot_S2000x1024_S1024x256_S2000x256_1_0_0_1_n_n.lhsIdx i k 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem mm_hid1_lhs1 (i : S2000x256.Idx) (k : dot_S2000x1024_S1024x256_S2000x256_1_0_0_1_n_n.contr.Idx) : (dot_S2000x1024_S1024x256_S2000x256_1_0_0_1_n_n.lhsIdx i k 1).val = (k ⟨0, by decide⟩).val :=
  dot_S2000x1024_S1024x256_S2000x256_1_0_0_1_n_n.lhsIdx_val_of_single rfl i k
theorem mm_hid1_rhs0 (i : S2000x256.Idx) (k : dot_S2000x1024_S1024x256_S2000x256_1_0_0_1_n_n.contr.Idx) : (dot_S2000x1024_S1024x256_S2000x256_1_0_0_1_n_n.rhsIdx i k 0).val = (k ⟨0, by decide⟩).val :=
  dot_S2000x1024_S1024x256_S2000x256_1_0_0_1_n_n.rhsIdx_val_of_single rfl i k
theorem mm_hid1_rhs1 (i : S2000x256.Idx) (k : dot_S2000x1024_S1024x256_S2000x256_1_0_0_1_n_n.contr.Idx) : (dot_S2000x1024_S1024x256_S2000x256_1_0_0_1_n_n.rhsIdx i k 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

theorem mm_hid1 (a : FVec Ideal S2000x1024 .bf16) (w : FVec Ideal S256x1024 .bf16) (p : Fin 2000) (q : Fin 256) :
    matmul dot_S2000x1024_S1024x256_S2000x256_1_0_0_1_n_n none a (transpose S1024x256 [1, 0] w transposes_S256x1024_p1_0_S1024x256) (constant S2000x256 .f32 0x00000000#32) (ix2 p q)
      = ∑ c : Fin 1024, a (ix2 p c) * w (ix2 q c) := by
  simp only [matmul]
  rw [Ideal.matmul_constant_zero_apply, ← Equiv.sum_comp (contrEquiv1 dot_S2000x1024_S1024x256_S2000x256_1_0_0_1_n_n 1024 rfl rfl).symm]
  refine Finset.sum_congr rfl fun c _ => ?_
  have hc := contrEquiv1_symm_val dot_S2000x1024_S1024x256_S2000x256_1_0_0_1_n_n 1024 rfl rfl c
  have el : dot_S2000x1024_S1024x256_S2000x256_1_0_0_1_n_n.lhsIdx (ix2 p q) ((contrEquiv1 dot_S2000x1024_S1024x256_S2000x256_1_0_0_1_n_n 1024 rfl rfl).symm c) = ix2 p c := funext fun b => Fin.ext (by
    match b with
    | ⟨0, _⟩ => exact mm_hid1_lhs0 _ _
    | ⟨1, _⟩ => exact (mm_hid1_lhs1 _ _).trans hc)
  have er : dot_S2000x1024_S1024x256_S2000x256_1_0_0_1_n_n.rhsIdx (ix2 p q) ((contrEquiv1 dot_S2000x1024_S1024x256_S2000x256_1_0_0_1_n_n 1024 rfl rfl).symm c) = ix2 c q := funext fun b => Fin.ext (by
    match b with
    | ⟨0, _⟩ => exact (mm_hid1_rhs0 _ _).trans hc
    | ⟨1, _⟩ => exact mm_hid1_rhs1 _ _)
  rw [el, er]
  exact congrArg (a (ix2 p c) * ·) (transpose_apply [1, 0] w transposes_S256x1024_p1_0_S1024x256 (ix2 c q) (ix2 q c) (fun b => match b with
    | ⟨0, _⟩ => rfl
    | ⟨1, _⟩ => rfl))

theorem mm_hid2_lhs0 (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm_hid2_lhs1 (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
theorem mm_hid2_rhs0 (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
theorem mm_hid2_rhs1 (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem mm_hid2 (a : FVec Ideal S2000x256 .bf16) (w : FVec Ideal S256x256 .bf16) (p : Fin 2000) (q : Fin 256) :
    matmul dot_S2000x256_S256x256_S2000x256_1_0_0_1_n_n none a (transpose S256x256 [1, 0] w transposes_S256x256_p1_0_S256x256) (constant S2000x256 .f32 0x00000000#32) (ix2 p q)
      = ∑ c : Fin 256, a (ix2 p c) * w (ix2 q c) := by
  simp only [matmul]
  rw [Ideal.matmul_constant_zero_apply, ← Equiv.sum_comp (contrEquiv1 dot_S2000x256_S256x256_S2000x256_1_0_0_1_n_n 256 rfl rfl).symm]
  refine Finset.sum_congr rfl fun c _ => ?_
  have hc := contrEquiv1_symm_val dot_S2000x256_S256x256_S2000x256_1_0_0_1_n_n 256 rfl rfl c
  have el : dot_S2000x256_S256x256_S2000x256_1_0_0_1_n_n.lhsIdx (ix2 p q) ((contrEquiv1 dot_S2000x256_S256x256_S2000x256_1_0_0_1_n_n 256 rfl rfl).symm c) = ix2 p c := funext fun b => Fin.ext (by
    match b with
    | ⟨0, _⟩ => exact mm_hid2_lhs0 _ _
    | ⟨1, _⟩ => exact (mm_hid2_lhs1 _ _).trans hc)
  have er : dot_S2000x256_S256x256_S2000x256_1_0_0_1_n_n.rhsIdx (ix2 p q) ((contrEquiv1 dot_S2000x256_S256x256_S2000x256_1_0_0_1_n_n 256 rfl rfl).symm c) = ix2 c q := funext fun b => Fin.ext (by
    match b with
    | ⟨0, _⟩ => exact (mm_hid2_rhs0 _ _).trans hc
    | ⟨1, _⟩ => exact mm_hid2_rhs1 _ _)
  rw [el, er]
  exact congrArg (a (ix2 p c) * ·) (transpose_apply [1, 0] w transposes_S256x256_p1_0_S256x256 (ix2 c q) (ix2 q c) (fun b => match b with
    | ⟨0, _⟩ => rfl
    | ⟨1, _⟩ => rfl))

theorem mm_out_lhs0 (i : S2000x1.Idx) (k : dot_S2000x256_S256x1_S2000x1_1_0_0_1_n_n.contr.Idx) : (dot_S2000x256_S256x1_S2000x1_1_0_0_1_n_n.lhsIdx i k 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem mm_out_lhs1 (i : S2000x1.Idx) (k : dot_S2000x256_S256x1_S2000x1_1_0_0_1_n_n.contr.Idx) : (dot_S2000x256_S256x1_S2000x1_1_0_0_1_n_n.lhsIdx i k 1).val = (k ⟨0, by decide⟩).val :=
  dot_S2000x256_S256x1_S2000x1_1_0_0_1_n_n.lhsIdx_val_of_single rfl i k
theorem mm_out_rhs0 (i : S2000x1.Idx) (k : dot_S2000x256_S256x1_S2000x1_1_0_0_1_n_n.contr.Idx) : (dot_S2000x256_S256x1_S2000x1_1_0_0_1_n_n.rhsIdx i k 0).val = (k ⟨0, by decide⟩).val :=
  dot_S2000x256_S256x1_S2000x1_1_0_0_1_n_n.rhsIdx_val_of_single rfl i k
theorem mm_out_rhs1 (i : S2000x1.Idx) (k : dot_S2000x256_S256x1_S2000x1_1_0_0_1_n_n.contr.Idx) : (dot_S2000x256_S256x1_S2000x1_1_0_0_1_n_n.rhsIdx i k 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

theorem mm_out (a : FVec Ideal S2000x256 .bf16) (w : FVec Ideal S1x256 .bf16) (p : Fin 2000) (q : Fin 1) :
    matmul dot_S2000x256_S256x1_S2000x1_1_0_0_1_n_n none a (transpose S256x1 [1, 0] w transposes_S1x256_p1_0_S256x1) (constant S2000x1 .f32 0x00000000#32) (ix2 p q)
      = ∑ c : Fin 256, a (ix2 p c) * w (ix2 q c) := by
  simp only [matmul]
  rw [Ideal.matmul_constant_zero_apply, ← Equiv.sum_comp (contrEquiv1 dot_S2000x256_S256x1_S2000x1_1_0_0_1_n_n 256 rfl rfl).symm]
  refine Finset.sum_congr rfl fun c _ => ?_
  have hc := contrEquiv1_symm_val dot_S2000x256_S256x1_S2000x1_1_0_0_1_n_n 256 rfl rfl c
  have el : dot_S2000x256_S256x1_S2000x1_1_0_0_1_n_n.lhsIdx (ix2 p q) ((contrEquiv1 dot_S2000x256_S256x1_S2000x1_1_0_0_1_n_n 256 rfl rfl).symm c) = ix2 p c := funext fun b => Fin.ext (by
    match b with
    | ⟨0, _⟩ => exact mm_out_lhs0 _ _
    | ⟨1, _⟩ => exact (mm_out_lhs1 _ _).trans hc)
  have er : dot_S2000x256_S256x1_S2000x1_1_0_0_1_n_n.rhsIdx (ix2 p q) ((contrEquiv1 dot_S2000x256_S256x1_S2000x1_1_0_0_1_n_n 256 rfl rfl).symm c) = ix2 c q := funext fun b => Fin.ext (by
    match b with
    | ⟨0, _⟩ => exact (mm_out_rhs0 _ _).trans hc
    | ⟨1, _⟩ => exact mm_out_rhs1 _ _)
  rw [el, er]
  exact congrArg (a (ix2 p c) * ·) (transpose_apply [1, 0] w transposes_S1x256_p1_0_S256x1 (ix2 c q) (ix2 q c) (fun b => match b with
    | ⟨0, _⟩ => rfl
    | ⟨1, _⟩ => rfl))

/-- A logistic times its own argument, then a change of format, read at an index where the argument is `y`: silu y. -/
theorem silu_apply {s : Shape} (m : FVec Ideal s .f32) (h : FTy.bits .bf16 < FTy.bits .f32) (i : s.Idx) (y : EReal)
    (hy : m i = y) : (truncf .bf16 (mulf m (logistic m)) h : FVec Ideal s .bf16) i = silu y := by
  subst hy
  rfl

/-- The first hidden layer of feature row `p`, as the body computes it. -/
theorem layer1_apply (a : FVec Ideal S2000x1024 .bf16) (w : FVec Ideal S256x1024 .bf16) (h : FTy.bits .bf16 < FTy.bits .f32)
    (p : Fin 2000) (i : Fin 256) :
    (truncf .bf16
        (mulf (matmul dot_S2000x1024_S1024x256_S2000x256_1_0_0_1_n_n none a (transpose S1024x256 [1, 0] w transposes_S256x1024_p1_0_S1024x256) (constant S2000x256 .f32 0x00000000#32))
          (logistic (matmul dot_S2000x1024_S1024x256_S2000x256_1_0_0_1_n_n none a (transpose S1024x256 [1, 0] w transposes_S256x1024_p1_0_S1024x256) (constant S2000x256 .f32 0x00000000#32))))
        h : FVec Ideal S2000x256 .bf16) (ix2 p i)
      = hidden1 (fun k => a (ix2 p k)) w i :=
  silu_apply _ h (ix2 p i) _ (mm_hid1 a w p i)

/-- The second hidden layer of feature row `p`, from a first-layer block `g` that is `hidden1` at every unit. -/
theorem layer2_apply (g : FVec Ideal S2000x256 .bf16) (w : FVec Ideal S256x256 .bf16) (h : FTy.bits .bf16 < FTy.bits .f32)
    (p : Fin 2000) (j : Fin 256) (f : Fin 256 → EReal) (hg : ∀ i, g (ix2 p i) = f i) :
    (truncf .bf16
        (mulf (matmul dot_S2000x256_S256x256_S2000x256_1_0_0_1_n_n none g (transpose S256x256 [1, 0] w transposes_S256x256_p1_0_S256x256) (constant S2000x256 .f32 0x00000000#32))
          (logistic (matmul dot_S2000x256_S256x256_S2000x256_1_0_0_1_n_n none g (transpose S256x256 [1, 0] w transposes_S256x256_p1_0_S256x256) (constant S2000x256 .f32 0x00000000#32))))
        h : FVec Ideal S2000x256 .bf16) (ix2 p j)
      = silu (∑ i : Fin 256, f i * w (ix2 j i)) :=
  silu_apply _ h (ix2 p j) _ ((mm_hid2 g w p j).trans (Finset.sum_congr rfl fun i _ => congrArg (· * w (ix2 j i)) (hg i)))

/-- The body's result block at row `p`: the linear branch plus the network branch of feature row `p`. -/
theorem pay_apply (x0 : Vec Ideal S2000x1024 .f32) (x1 : Vec Ideal S1x1024 .f32) (x2 : Vec Ideal S256x1024 .f32)
    (x3 : Vec Ideal S256x256 .f32) (x4 : Vec Ideal S1x256 .f32) (p : Fin 2000) (q : Fin 1) :
    k0_pay1 (F := Ideal) x0 x1 x2 x3 x4 (ix2 p q)
      = linear (fun k => x0 (ix2 p k)) x1 + network (fun k => x0 (ix2 p k)) x2 x3 x4 := by
  obtain rfl : q = 0 := Subsingleton.elim _ _
  unfold k0_pay1
  dsimp only
  refine (addf_apply _ _ _).trans (congrArg₂ (· + ·) ?_ ?_)
  · exact mm_lin _ _ p 0
  · refine (mm_out _ _ p 0).trans (Finset.sum_congr rfl fun j _ => congrArg (· * x4 (ix2 0 j)) ?_)
    exact layer2_apply _ _ _ p j _ (fun i => layer1_apply _ _ _ p i)

end Cert.KernelIdeal.Payload
end
-- ==== Proof.Blocks.lean ====
/-
  From the kernel's row blocks to its whole output array.

  The grid has a hundred points. At point `t` the kernel is handed rows `2000 t … 2000 t + 1999` of the feature matrix
  and, at every point, the whole of each weight array; it writes back rows `2000 t … 2000 t + 1999` of the output
  column. Row `p` of what it writes at point `t` is the per-atom energy of feature row `2000 t + p` (the payload read at
  an index), so what point `t` writes back is block `t` of the per-atom energy column `G` of the argument arrays.
  The hundred blocks tile the column (row `r` lies in block `r / 2000`), so after the region the output array is `G`.
-/
import proofs.«114554_j34333968564629_1_alg».proof.Proof.Gen.KernelIdeal.Frame
import proofs.«114554_j34333968564629_1_alg».proof.Proof.AtomEnergy
import proofs.«114554_j34333968564629_1_alg».proof.Proof.Payload
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.AtomEnergy

variable (m : (ℓ : Loc nD τ sig) → Buf (Elt Ideal) ℓ) (ρ : Dev nD → PrngReg)

theorem hz : (![0, 0] : Fin 2 → Nat) = fun _ => 0 := funext fun a => by fin_cases a <;> rfl

/-- The per-atom energy column of the argument arrays as the region finds them. -/
def G (c : Dev nD) : S200000x1.Idx → EReal :=
  perAtom (V m c main_arg0) (V m c main_arg4) (V m c main_arg5) (V m c main_arg6) (V m c main_arg7)

/-- The block indices over the grid: at point `t` the feature window and the output window are at row block `t`,
    every weight window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `2000 t + p` of the feature matrix. -/
theorem features_apply (c : Dev nD) (t : Fin cfg0.N) (p : Fin 2000) (k : Fin 1024) (n : Fin 200000)
    (hn : n.val = t.val * 2000 + p.val) :
    (iblk m c 0 t : Vec Ideal S2000x1024 .f32) (ix2 p k) = (V m c main_arg0 : S200000x1024.Idx → EReal) (ix2 n k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2000 + 1 * p.val = n.val; rw [e0, hn]; omega
  | ⟨1, _⟩ => show win0_0.index t (1 : Fin 2) * 1024 + 1 * k.val = k.val; rw [e1]; omega

/-- Each weight window's block, at every point, is its whole array. -/
theorem wl_eq (c : Dev nD) (t : Fin cfg0.N) : (iblk m c 1 t : Vec Ideal S1x1024 .f32) = (V m c main_arg4 : S1x1024.Idx → EReal) := by
  obtain ⟨-, -, e0, e1, -⟩ := idx_facts t
  unfold iblk
  funext y
  rw [View.read_apply]
  show V m c main_arg4 _ = V m c main_arg4 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega

theorem w1_eq (c : Dev nD) (t : Fin cfg0.N) : (iblk m c 2 t : Vec Ideal S256x1024 .f32) = (V m c main_arg5 : S256x1024.Idx → EReal) := by
  obtain ⟨-, -, -, -, e0, e1, -⟩ := idx_facts t
  unfold iblk
  funext y
  rw [View.read_apply]
  show V m c main_arg5 _ = V m c main_arg5 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 1024 + 1 * (y 1).val = (y 1).val; rw [e1]; omega

theorem w2_eq (c : Dev nD) (t : Fin cfg0.N) : (iblk m c 3 t : Vec Ideal S256x256 .f32) = (V m c main_arg6 : S256x256.Idx → EReal) := by
  obtain ⟨-, -, -, -, -, -, e0, e1, -⟩ := idx_facts t
  unfold iblk
  funext y
  rw [View.read_apply]
  show V m c main_arg6 _ = V m c main_arg6 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem wo_eq (c : Dev nD) (t : Fin cfg0.N) : (iblk m c 4 t : Vec Ideal S1x256 .f32) = (V m c main_arg7 : S1x256.Idx → EReal) := by
  obtain ⟨-, -, -, -, -, -, -, -, e0, e1, -⟩ := idx_facts t
  unfold iblk
  funext y
  rw [View.read_apply]
  show V m c main_arg7 _ = V m c main_arg7 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- What point `t` writes back is block `t` of the per-atom energy column: rows `2000 t … 2000 t + 1999`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S2000x1024) hz, View.ld_unit_zero (S := S1x1024) hz, View.ld_unit_zero (S := S256x1024) hz,
    View.ld_unit_zero (S := S256x256) hz, View.ld_unit_zero (S := S1x256) hz]
  rw [wl_eq, w1_eq, w2_eq, wo_eq]
  funext j
  obtain ⟨-, -, -, -, -, -, -, -, -, -, e0, e1⟩ := idx_facts t
  have hN : cfg0.N = 100 := N_0
  have ht : t.val < 100 := hN ▸ t.isLt
  have hj0 : (j 0).val < 2000 := (j 0).isLt
  have hj1 : (j 1).val < 1 := (j 1).isLt
  show k0_pay1 (F := Ideal) (iblk m c 0 t) (V m c main_arg4) (V m c main_arg5) (V m c main_arg6) (V m c main_arg7) j
    = G m c (((cfg0.win 5).blk t).view.emb j)
  refine (congrArg (k0_pay1 (F := Ideal) (iblk m c 0 t) (V m c main_arg4) (V m c main_arg5) (V m c main_arg6) (V m c main_arg7))
    (eq_ix2 (n0 := 2000) (n1 := 1) j)).trans ?_
  refine (Payload.pay_apply _ _ _ _ _ (j 0) (j 1)).trans ?_
  have hrow : (fun k => (iblk m c 0 t : Vec Ideal S2000x1024 .f32) (ix2 (j 0) k))
      = row (V m c main_arg0) ((((cfg0.win 5).blk t).view.emb j) 0) := by
    funext k
    refine features_apply m c t (j 0) k _ ?_
    show win0_5.index t (0 : Fin 2) * 2000 + 1 * (j 0).val = t.val * 2000 + (j 0).val
    rw [e0]; omega
  rw [hrow]
  rfl

/-- An index of the column is in point `t`'s block iff each coordinate is in the block's range on its axis. -/
theorem mem_blk (t : Fin cfg0.N) (i : S200000x1.Idx) :
    i ∈ ((cfg0.win 5).blk t).view.set ↔ ∀ a : Fin 2, win0_5.index t a * S2000x1.size a ≤ (i a).val ∧ (i a).val < win0_5.index t a * S2000x1.size a + S2000x1.size a := by
  show i ∈ ((View.whole main_v0).slice (win0_5.rect t)).set ↔ _
  rw [View.set_slice_whole, Rect.mem_set_unit]
  exact Iff.rfl

/-- The hundred row blocks tile the column: row `r` is in the block of point `r / 2000`. -/
theorem cover (i : S200000x1.Idx) : ∃ t : Fin cfg0.N, (cfg0.win 5).flush t = true ∧ i ∈ ((cfg0.win 5).blk t).view.set := by
  have hN : cfg0.N = 100 := N_0
  have hi0 : (i 0).val < 200000 := (i 0).isLt
  have hi1 : (i 1).val < 1 := (i 1).isLt
  let t : Fin cfg0.N := ⟨(i 0).val / 2000, by rw [hN]; omega⟩
  have htv : t.val = (i 0).val / 2000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, htv]; omega
  | ⟨1, _⟩ => show win0_5.index t (1 : Fin 2) * 1 ≤ (i 1).val ∧ (i 1).val < win0_5.index t (1 : Fin 2) * 1 + 1; rw [e1]; omega

/-- After the region the output array holds the per-atom energy column. -/
theorem final (c : Dev nD) : (dats m 0 c).arrAt 5 cfg0.N = G m c :=
  (dats m 0 c).arrAt_eq_of_cover 5 (G m c) (fun t _ => flushed_eq m c t) cover

end Cert.KernelIdeal.Blocks

end
-- ==== Proof.Energies.lean ====
/-
  The kernel program's result: the host operations after the region, read as one function of the arguments.

  After the region the program computes, on the host, the composition energies (a segment sum of one-hot species rows
  against the species weights) and the segment sum over each structure's atoms of the kernel's output column, and adds
  the two (the second times the scale factor one). The output column is the per-atom energy column `G`
  (`Blocks.final`); the species, structure-index and species-weight arrays are no array of the region and no host
  operation writes them, so they are read as launched. Hence the result buffer ends at `energies` of those and `G`.
-/
import proofs.«114554_j34333968564629_1_alg».proof.Proof.Gen.KernelIdeal.Frame
import proofs.«114554_j34333968564629_1_alg».proof.Proof.AtomEnergy
import proofs.«114554_j34333968564629_1_alg».proof.Proof.Blocks
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Energies

open Cert.KernelIdeal Cert.KernelIdeal.Gen Cert.AtomEnergy Cert.KernelIdeal.Blocks Idealize.ShloMosaic.StableHlo

variable (m : (ℓ : Loc nD τ sig) → Buf (Elt Ideal) ℓ) (ρ : Dev nD → PrngReg)

/-- The composition energies: per structure, the counts of each species among its atoms (a segment sum of one-hot
    rows) against the species weights. -/
def composition (x1 x2 : (⟨S200000, .i32⟩ : BufTy).Contents (Elt Ideal)) (x3 : (⟨S1x4, .f32⟩ : BufTy).Contents (Elt Ideal)) :
    (⟨S2000x1, .f32⟩ : BufTy).Contents (Elt Ideal) :=
  Host.dotGeneral (F := Ideal) (φ₁ := .f32) (φ₂ := .f32) dot_S2000x4_S4x1_S2000x1_1_0_0_1_n_n none
    (Host.scatterAdd scatter_S2000x4_S200000x1_S200000x4_1_0_0_1
      (broadcastInDim S2000x4 ![] bcast_S_S2000x4 (constant (F := Ideal) S_ .f32 0x00000000#32))
      (broadcastInDim S200000x1 ![0] bcast_S200000_S200000x1_0 x2)
      (uitofp .f32 (cmpi .eq
        (broadcastInDim S200000x4 ![0, 1] bcast_S200000x1_S200000x4_0_1 (broadcastInDim S200000x1 ![0] bcast_S200000_S200000x1_0 x1))
        (broadcastInDim S200000x4 ![0, 1] bcast_S1x4_S200000x4_0_1 (iotaInDim S1x4 32 1)))))
    (transpose S4x1 [1, 0] x3 transposes_S1x4_S4x1_1_0 : (⟨S4x1, .f32⟩ : BufTy).Contents (Elt Ideal))

/-- The structures' energies from a per-atom column `out`: the composition energies plus the segment sum of `out`
    over the atoms of each structure (times the scale factor one). -/
def energies (x1 x2 : (⟨S200000, .i32⟩ : BufTy).Contents (Elt Ideal)) (x3 : (⟨S1x4, .f32⟩ : BufTy).Contents (Elt Ideal))
    (out : (⟨S200000x1, .f32⟩ : BufTy).Contents (Elt Ideal)) : (⟨S2000x1, .f32⟩ : BufTy).Contents (Elt Ideal) :=
  addf (composition x1 x2 x3)
    (mulf (Host.scatterAdd scatter_S2000x1_S200000x1_S200000x1_1_0_0_1
        (broadcastInDim S2000x1 ![] bcast_S_S2000x1 (constant (F := Ideal) S_ .f32 0x00000000#32))
        (broadcastInDim S200000x1 ![0] bcast_S200000_S200000x1_0 x2) out)
      (broadcastInDim S2000x1 ![] bcast_S_S2000x1 (constant (F := Ideal) S_ .f32 0x3F800000#32)))

/-- The host operations after the region, run from any buffer contents `W`, leave in the result buffer the energies of
    what `W` holds at the species, the structure indices, the species weights and the kernel's output array. -/
theorem tail_of (W : Valuation τ sig (Elt Ideal)) :
    StableHlo.after ([hostOps1, hostOps1_1] : List (List (HloOp τ sig (Elt Ideal)))).flatten W (Proc.devRef .tc main_v12)
      = energies (W (Proc.devRef .tc main_arg1)) (W (Proc.devRef .tc main_arg2)) (W (Proc.devRef .tc main_arg3)) (W (Proc.devRef .tc main_v0)) := by
  simp only [hostOps1, hostOps1_1, List.flatten_cons, List.flatten_nil, List.append_nil, List.cons_append, List.nil_append]
  after_results
  rfl

/-- After the whole program the result buffer holds the energies of the arguments and the per-atom energy column. -/
theorem tail_eq (c : Dev nD) :
    Pipeline.afterTail₀ cfgs (dats m) 0 (V0 m) [hostOps1, hostOps1_1] c main_v12
      = energies (m ((c : Thread nD τ).loc main_arg1)) (m ((c : Thread nD τ).loc main_arg2)) (m ((c : Thread nD τ).loc main_arg3)) (G m c) := by
  unfold Pipeline.afterTail₀
  refine (tail_of _).trans ?_
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h5 : Pipeline.withArrays (cfgs 0).spec c (V0 m c) (fun w => (dats m 0 c).arrAt w (cfgs 0).N) (Proc.devRef .tc main_v0)
      = G m c :=
    (Pipeline.withArrays_arr spec0 launch0.win.arr_inj c (V0 m c) _ 5).trans (final m c)
  rw [h1, h2, h3, h5]

/-- The kernel program's run, read: every weakly fair execution terminates with the result buffer at the energies of the
    arguments and the per-atom energy column, and the argument arrays unchanged. -/
theorem run : θ_run defs (onTc (τ := τ) (main (F := Ideal))) ⟨m, fun _ => 0, ρ⟩ fun r => ∀ c : Dev nD,
      r.2.mem ((c.tc : Thread nD τ).loc main_v12)
        = energies (m ((c : Thread nD τ).loc main_arg1)) (m ((c : Thread nD τ).loc main_arg2)) (m ((c : Thread nD τ).loc main_arg3)) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end Cert.KernelIdeal.Energies

end
-- ==== Proof.lean ====
/-
  The certificate of the power-spectrum energy model: the kernel program and the reference compute, on the extended
  reals, the same energies of the structures.

  Both programs add the composition energies (the same host operations of the same arguments) to the segment sum, over
  the atoms of each structure, of per-atom numbers. The kernel computes for each atom the sum  linear + network  of its
  feature row (`AtomEnergy.perAtom`), a block of 2000 atoms per grid point, and the host then takes ONE segment sum of
  that column; the reference computes the linear and the network columns separately, takes a segment sum of each, and
  adds the two sums. A segment sum that starts from zeros is additive (`AtomEnergy.scatterAdd_add`: a finite sum of
  sums is the sum of the sums, which needs no finiteness on the extended reals), so the two results are one function of
  the arguments. The inputs' finiteness is never used.

  The frames of the two kernel programs are the generated ones; the reference's frame is its generated run with the
  result dropped; the idealization rewrote nothing, so `preserves` has nothing to show.
-/
import proofs.«114554_j34333968564629_1_alg».proof.Defs
import proofs.«114554_j34333968564629_1_alg».proof.Proof.Gen.Kernel
import proofs.«114554_j34333968564629_1_alg».proof.Proof.Gen.Kernel.Skeleton
import proofs.«114554_j34333968564629_1_alg».proof.Proof.Gen.Kernel.Launch
import proofs.«114554_j34333968564629_1_alg».proof.Proof.Gen.Kernel.Points
import proofs.«114554_j34333968564629_1_alg».proof.Proof.Gen.Kernel.Frame
import proofs.«114554_j34333968564629_1_alg».proof.Proof.Gen.KernelIdeal
import proofs.«114554_j34333968564629_1_alg».proof.Proof.Gen.KernelIdeal.Skeleton
import proofs.«114554_j34333968564629_1_alg».proof.Proof.Gen.KernelIdeal.Launch
import proofs.«114554_j34333968564629_1_alg».proof.Proof.Gen.KernelIdeal.Points
import proofs.«114554_j34333968564629_1_alg».proof.Proof.Gen.KernelIdeal.Frame
import proofs.«114554_j34333968564629_1_alg».proof.Proof.Gen.ReferenceIdeal
import proofs.«114554_j34333968564629_1_alg».proof.Proof.Gen.ReferenceIdeal.Run
import proofs.«114554_j34333968564629_1_alg».proof.Proof.Gen.ReferenceIdeal.Read
import proofs.«114554_j34333968564629_1_alg».proof.Proof.Gen.Pre_finite_inputs
import proofs.«114554_j34333968564629_1_alg».proof.Proof.AtomEnergy
import proofs.«114554_j34333968564629_1_alg».proof.Proof.Reference
import proofs.«114554_j34333968564629_1_alg».proof.Proof.Payload
import proofs.«114554_j34333968564629_1_alg».proof.Proof.Blocks
import proofs.«114554_j34333968564629_1_alg».proof.Proof.Energies
import Idealize.ShloMosaic.Adequacy
import Idealize.ShloMosaic.Init

set_option maxRecDepth 16384

noncomputable section

namespace Cert.Proof

open Idealize.ShloMosaic Idealize.ShloMosaic.TcCoe Idealize.SL.Sem

/-- The reference's result, written with the reference's own dimension records, is the kernel program's `energies` of
    the same arguments and the per-atom energy column: the two programs print the same host operations here, so the two
    terms unfold to one. -/
theorem energies_agree (x0 : (⟨Cert.ReferenceIdeal.S200000x1024, .f32⟩ : BufTy).Contents (Elt Ideal))
    (x1 x2 : (⟨Cert.ReferenceIdeal.S200000, .i32⟩ : BufTy).Contents (Elt Ideal))
    (x3 : (⟨Cert.ReferenceIdeal.S1x4, .f32⟩ : BufTy).Contents (Elt Ideal)) (x4 : (⟨Cert.ReferenceIdeal.S1x1024, .f32⟩ : BufTy).Contents (Elt Ideal))
    (x5 : (⟨Cert.ReferenceIdeal.S256x1024, .f32⟩ : BufTy).Contents (Elt Ideal)) (x6 : (⟨Cert.ReferenceIdeal.S256x256, .f32⟩ : BufTy).Contents (Elt Ideal))
    (x7 : (⟨Cert.ReferenceIdeal.S1x256, .f32⟩ : BufTy).Contents (Elt Ideal)) :
    Cert.ReferenceIdeal.Read.val_main_v25 (F := Ideal) x0 x1 x2 x3 x4 x5 x6 x7
      = Cert.KernelIdeal.Energies.energies x1 x2 x3 (Cert.AtomEnergy.perAtom x0 x4 x5 x6 x7) :=
  (Cert.ReferenceIdeal.RefValue.result_eq x0 x1 x2 x3 x4 x5 x6 x7).trans rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel program ends at `energies` of its arguments and the per-atom energy column (the
    kernel's run, read), and the reference at the same term of arguments that agree. -/
theorem algebraic : Cert.algebraic_KernelIdeal_ReferenceIdeal := by
  intro m ρ m' ρ' _ hagree
  refine ⟨fun c => Cert.KernelIdeal.Energies.energies (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) (Cert.KernelIdeal.Blocks.G m c),
    Cert.KernelIdeal.Energies.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7, Cert.ReferenceIdeal.Read.val_main_v25_eq]
  exact energies_agree _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
